-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S512x512 : Shape := ⟨2, ![512, 512]⟩
abbrev S512 : Shape := ⟨1, ![512]⟩
abbrev S20000x1 : Shape := ⟨2, ![20000, 1]⟩
abbrev S320000 : Shape := ⟨1, ![320000]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S20000x1 : S_.BroadcastsInDim S20000x1 (![] : Fin 0 → Fin S20000x1.rank)
  reducesTo_S20000x1_S_d0_1 : S20000x1.ReducesTo [0, 1] S_

variable [Facts]

def fn_part1 {F : FTy → Type} [FloatOps F] (main_v13 : IVec S_ 1) (main_v16 : IVec S20000x1 1) : IVec S_ 1 :=
  let main_c_5 : IVec S_ 1 := constantI S_ 1 1#1
  let main_v17 : IVec S_ 1 := (fun x v => Host.reduce IntOp.andi x v reducesTo_S20000x1_S_d0_1 h_S_) main_v16 main_c_5
  let main_v18 : IVec S_ 1 := andi main_v13 main_v17
  main_v18

def fn {F : FTy → Type} [FloatOps F] (main_arg0 : FVec F S20000x512 .f32) (main_arg1 : FVec F S512x512 .f32) (main_arg2 : FVec F S512 .f32) (main_arg3 : FVec F S20000x1 .f32) (main_arg4 : IVec S320000 32) (main_arg5 : IVec S320000 32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S20000x1 .f32 := Host.absf main_arg3
  let main_cst_4 : FVec F S_ .f32 := constant S_ .f32 0x7F800000#32
  let main_v15 : FVec F S20000x1 .f32 := broadcastInDim S20000x1 ![] bcast_S_S20000x1 main_cst_4
  let main_v16 : IVec S20000x1 1 := cmpf .olt main_v14 main_v15
  fn_part1 (F := F) main_v13 main_v16
-- ==== Kernel.lean ====
abbrev S20000x512 : Shape := ⟨2, ![20000, 512]⟩
abbrev S512x512 : Shape := ⟨2, ![512, 512]⟩
abbrev S512 : Shape := ⟨1, ![512]⟩
abbrev S20000x1 : Shape := ⟨2, ![20000, 1]⟩
abbrev S320000 : Shape := ⟨1, ![320000]⟩
abbrev S2000x512 : Shape := ⟨2, ![2000, 512]⟩
abbrev S2000x1 : Shape := ⟨2, ![2000, 1]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩

abbrev nBuf : Space → Nat
  | .hbm => 23
  | .vmem => 14
  | .smem => 0
  | _ => 0

abbrev bufTy : (tb : Table) → Fin (tcTables nBuf tb) → BufTy
  | .hbm, ⟨0, _⟩ => ⟨S20000x512, .f32⟩
  | .hbm, ⟨1, _⟩ => ⟨S512x512, .f32⟩
  | .hbm, ⟨2, _⟩ => ⟨S512, .f32⟩
  | .hbm, ⟨3, _⟩ => ⟨S20000x1, .f32⟩
  | .hbm, ⟨4, _⟩ => ⟨S320000, .i32⟩
  | .hbm, ⟨5, _⟩ => ⟨S320000, .i32⟩
  | .hbm, ⟨6, _⟩ => ⟨S20000x512, .bf16⟩
  | .hbm, ⟨7, _⟩ => ⟨S512x512, .bf16⟩
  | .hbm, ⟨8, _⟩ => ⟨S20000x512, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x512, .f32⟩
  | .hbm, ⟨18, _⟩ => ⟨S_, .f32⟩
  | .hbm, ⟨19, _⟩ => ⟨S20000x512, .f32⟩
  | .hbm, ⟨20, _⟩ => ⟨S320000x1, .i32⟩
  | .hbm, ⟨21, _⟩ => ⟨S20000x512, .f32⟩
  | .hbm, ⟨22, _⟩ => ⟨S20000x512, .f32⟩
  | .local _ .vmem, ⟨0, _⟩ => ⟨S2000x512, .bf16⟩
  | .local _ .vmem, ⟨1, _⟩ => ⟨S2000x512, .bf16⟩
  | .local _ .vmem, ⟨2, _⟩ => ⟨S512x512, .bf16⟩
  | .local _ .vmem, ⟨3, _⟩ => ⟨S2000x1, .f32⟩
  | .local _ .vmem, ⟨4, _⟩ => ⟨S2000x1, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x1, .f32⟩
  | .local _ .vmem, ⟨10, _⟩ => ⟨S2000x1, .f32⟩
  | .local _ .vmem, ⟨11, _⟩ => ⟨S512, .f32⟩
  | .local _ .vmem, ⟨12, _⟩ => ⟨S2000x512, .f32⟩
  | .local _ .vmem, ⟨13, _⟩ => ⟨S2000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2000x1_S2000x1_0_0 : ∀ a, (![0, 0] : Fin 2 → Nat) a + S2000x1.size a ≤ S2000x1.size a
  h_S2000x1 : 0 < S2000x1.numel
  broadcasts_S2000x1_S2000x512 : S2000x1.Broadcasts S2000x512
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  dot_S2000x512_S512x512_S2000x512_1_0_0_1_n_n_wf : DotDims.WF S2000x512 S512x512 S2000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .bf16 = 32 ∨ (Rect.block (s := S20000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S20000x1.size a
  hwx0_2 : ∀ i : grid0.Coords, EltTy.bits .f32 = 32 ∨ (Rect.block (s := S20000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S20000x512.size a
  hwx0_3 : ∀ i : grid0.Coords, EltTy.bits .f32 = 32 ∨ (Rect.block (s := S20000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S20000x512.size a
  hwx1_3 : ∀ i : grid1.Coords, EltTy.bits .f32 = 32 ∨ (Rect.block (s := S20000x512) S2000x512.size (cc1_transform_3 i) (hinb1_3 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S20000x512 : Shape := ⟨2, ![20000, 512]⟩
abbrev S512x512 : Shape := ⟨2, ![512, 512]⟩
abbrev S512 : Shape := ⟨1, ![512]⟩
abbrev S20000x1 : Shape := ⟨2, ![20000, 1]⟩
abbrev S320000 : Shape := ⟨1, ![320000]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩

abbrev nBuf : Space → Nat
  | .hbm => 30
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S512x512, .f32⟩
  | .hbm, ⟨2, _⟩ => ⟨S512, .f32⟩
  | .hbm, ⟨3, _⟩ => ⟨S20000x1, .f32⟩
  | .hbm, ⟨4, _⟩ => ⟨S320000, .i32⟩
  | .hbm, ⟨5, _⟩ => ⟨S320000, .i32⟩
  | .hbm, ⟨6, _⟩ => ⟨S20000x512, .f32⟩
  | .hbm, ⟨7, _⟩ => ⟨S20000x512, .f32⟩
  | .hbm, ⟨8, _⟩ => ⟨S20000x512, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x512, .f32⟩
  | .hbm, ⟨18, _⟩ => ⟨S_, .f32⟩
  | .hbm, ⟨19, _⟩ => ⟨S20000x512, .f32⟩
  | .hbm, ⟨20, _⟩ => ⟨S320000x1, .i32⟩
  | .hbm, ⟨21, _⟩ => ⟨S20000x512, .f32⟩
  | .hbm, ⟨22, _⟩ => ⟨S20000x512, .f32⟩
  | .hbm, ⟨23, _⟩ => ⟨S20000x512, .f32⟩
  | .hbm, ⟨24, _⟩ => ⟨S1x512, .f32⟩
  | .hbm, ⟨25, _⟩ => ⟨S20000x512, .f32⟩
  | .hbm, ⟨26, _⟩ => ⟨S20000x512, .f32⟩
  | .hbm, ⟨27, _⟩ => ⟨S_, .f32⟩
  | .hbm, ⟨28, _⟩ => ⟨S20000x512, .f32⟩
  | .hbm, ⟨29, _⟩ => ⟨S20000x512, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S20000x1_S20000x512_0_1 : S20000x1.BroadcastsInDim S20000x512 (![0, 1] : Fin 2 → Fin S20000x512.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  dot_S20000x512_S512x512_S20000x512_1_0_0_1_n_n_wf : DotDims.WF S20000x512 S512x512 S20000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf

class Facts : Prop extends Facts₀ where

variable [Facts]
-- ==== Proof.LastBoundary.lean ====
/-
  The idealized kernel program's run, with its result kept.

  The program is two tiled regions among stretches of host operations. Its buffers' contents at each boundary form a
  fold from the launch memory: the first stretch's operations, the first region's write-backs, the second stretch's
  operations, the second region's write-backs. Every weakly fair execution terminates with every buffer that outlives a
  region at the last boundary's contents; in particular the result buffer holds what the second region's write-backs
  leave in it, and each argument holds what it was launched with.
-/
import proofs.«167983_j79817672229558_1_alg».proof.Proof.Gen.KernelIdeal.Frame

set_option maxRecDepth 16384

noncomputable section

namespace Cert.KernelIdeal.LastBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched: the launch over the program's four segments, the last thread
    state read against the final memory. -/
theorem run : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.LastBoundary

end
-- ==== Proof.Spec.lean ====
/-
  The graph-convolution layer as two whole-array functions on the extended reals.

  With node features `h` (20000 × 512), a weight matrix `w` (512 × 512), a per-node scale `nrm` (a 20000 × 1 column)
  and a bias `b` (512):

  * `scaled h w nrm` is the projected feature matrix with every row multiplied by its node's scale,
      (row p, column q) ↦ (∑ₖ h(p,k) · w(k,q)) · nrm(p);
  * `activated agg nrm b` takes an aggregated feature matrix `agg` to
      (row p, column q) ↦ max (agg(p,q) · nrm(p) + b(q)) 0,
    the zero being the value of the all-zero single-precision word.

  The layer is `activated (A (scaled h w nrm)) nrm b`, where `A` gathers rows by the source index of each edge and
  sums them into the rows named by the destination indices; `A` is the same operation in both programs and is never
  opened.
-/
import Idealize.ShloMosaic.PureOps.Ideal
import Idealize.ShloMosaic.Lib.ValueIdx

noncomputable section

namespace Cert.Gcn

open Idealize.ShloMosaic Idealize.ShloMosaic.ValueIdx

/-- The projection of every node's features, each row scaled by its node's factor. -/
def scaled (h : (⟨2, ![20000, 512]⟩ : Shape).Idx → EReal) (w : (⟨2, ![512, 512]⟩ : Shape).Idx → EReal)
    (nrm : (⟨2, ![20000, 1]⟩ : Shape).Idx → EReal) : (⟨2, ![20000, 512]⟩ : Shape).Idx → EReal :=
  fun i => (∑ k : Fin 512, h (ix2 (i 0) k) * w (ix2 k (i 1))) * nrm (ix2 (i 0) (0 : Fin 1))

/-- Read at row `p`, column `q`. -/
theorem scaled_apply (h : (⟨2, ![20000, 512]⟩ : Shape).Idx → EReal) (w : (⟨2, ![512, 512]⟩ : Shape).Idx → EReal)
    (nrm : (⟨2, ![20000, 1]⟩ : Shape).Idx → EReal) (p : Fin 20000) (q : Fin 512) :
    scaled h w nrm (ix2 p q) = (∑ k : Fin 512, h (ix2 p k) * w (ix2 k q)) * nrm (ix2 p (0 : Fin 1)) := rfl

/-- The aggregated features scaled once more per node, the bias added per column, and the negative part cut off. -/
def activated (agg : (⟨2, ![20000, 512]⟩ : Shape).Idx → EReal) (nrm : (⟨2, ![20000, 1]⟩ : Shape).Idx → EReal)
    (b : (⟨1, ![512]⟩ : Shape).Idx → EReal) : (⟨2, ![20000, 512]⟩ : Shape).Idx → EReal :=
  fun i => max (agg i * nrm (ix2 (i 0) (0 : Fin 1)) + b (ix1 (i 1))) (Ideal.ofBits .f32 0x00000000#32)

/-- Read at row `p`, column `q`. -/
theorem activated_apply (agg : (⟨2, ![20000, 512]⟩ : Shape).Idx → EReal) (nrm : (⟨2, ![20000, 1]⟩ : Shape).Idx → EReal)
    (b : (⟨1, ![512]⟩ : Shape).Idx → EReal) (p : Fin 20000) (q : Fin 512) :
    activated agg nrm b (ix2 p q) = max (agg (ix2 p q) * nrm (ix2 p (0 : Fin 1)) + b (ix1 q)) (Ideal.ofBits .f32 0x00000000#32) := rfl

end Cert.Gcn

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Bodies.lean ====
/-
  The two kernel bodies' arithmetic, read at a row and a column of a block.

  A block is 2000 consecutive rows. The first body multiplies the block's 2000 × 512 features by the whole 512 × 512
  weight matrix into a zero accumulator and scales every row by its node's factor (a 2000 × 1 column spread over the
  512 columns): at (p, q) it is (∑ₖ x(p,k) · w(k,q)) · n(p). The second body scales the block of aggregated features the
  same way, adds the bias (a vector of 512 laid as one row and spread over the 2000 rows) and takes the maximum with
  zero: at (p, q) it is max (a(p,q) · n(p) + b(q)) 0.
-/
import proofs.«167983_j79817672229558_1_alg».proof.Proof.Gen.KernelIdeal.Skeleton
import proofs.«167983_j79817672229558_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bodies

open Cert.KernelIdeal Cert.KernelIdeal.Gen Idealize.ShloMosaic Idealize.ShloMosaic.TcCoe Idealize.ShloMosaic.ValueIdx

/-! ## The block product's operand indices -/

theorem lhs_row (i : S2000x512.Idx) (κ : dot_S2000x512_S512x512_S2000x512_1_0_0_1_n_n.contr.Idx) :
    (dot_S2000x512_S512x512_S2000x512_1_0_0_1_n_n.lhsIdx i κ 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_col (i : S2000x512.Idx) (κ : dot_S2000x512_S512x512_S2000x512_1_0_0_1_n_n.contr.Idx) :
    (dot_S2000x512_S512x512_S2000x512_1_0_0_1_n_n.lhsIdx i κ 1).val = (κ ⟨0, by decide⟩).val :=
  dot_S2000x512_S512x512_S2000x512_1_0_0_1_n_n.lhsIdx_val_of_single rfl i κ
theorem rhs_row (i : S2000x512.Idx) (κ : dot_S2000x512_S512x512_S2000x512_1_0_0_1_n_n.contr.Idx) :
    (dot_S2000x512_S512x512_S2000x512_1_0_0_1_n_n.rhsIdx i κ 0).val = (κ ⟨0, by decide⟩).val :=
  dot_S2000x512_S512x512_S2000x512_1_0_0_1_n_n.rhsIdx_val_of_single rfl i κ
theorem rhs_col (i : S2000x512.Idx) (κ : dot_S2000x512_S512x512_S2000x512_1_0_0_1_n_n.contr.Idx) :
    (dot_S2000x512_S512x512_S2000x512_1_0_0_1_n_n.rhsIdx i κ 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The block product into a zero accumulator, at (p, q): the sum over the 512 contracted positions. -/
theorem product_at (x : FVec Ideal S2000x512 .bf16) (w : FVec Ideal S512x512 .bf16) (p : Fin 2000) (q : Fin 512) :
    matmul dot_S2000x512_S512x512_S2000x512_1_0_0_1_n_n none x w (constant (F := Ideal) S2000x512 .f32 0x00000000#32) (ix2 p q)
      = ∑ k : Fin 512, x (ix2 p k) * w (ix2 k q) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhs_row _ _
    | ⟨1, _⟩ => exact (lhs_col _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhs_row _ _).trans hk
    | ⟨1, _⟩ => exact rhs_col _ _)
  rw [el, er]

/-- The first body's stored value at (p, q). -/
theorem project_at (x : Vec Ideal S2000x512 .bf16) (w : Vec Ideal S512x512 .bf16) (n : Vec Ideal S2000x1 .f32) (p : Fin 2000) (q : Fin 512) :
    k0_pay1 (F := Ideal) x w n (ix2 p q) = (∑ k : Fin 512, x (ix2 p k) * w (ix2 k q)) * n (ix2 p (0 : Fin 1)) := by
  unfold k0_pay1
  rw [mulf_apply, shapeCast_self, shapeCast_self, product_at, Cert.LibColumn.broadcastTo_a1_ab_apply]

/-- The second body's stored value at (p, q). -/
theorem finish_at (b : Vec Ideal S512 .f32) (a : Vec Ideal S2000x512 .f32) (n : Vec Ideal S2000x1 .f32) (p : Fin 2000) (q : Fin 512) :
    k1_pay1 (F := Ideal) b a n (ix2 p q) = max (a (ix2 p q) * n (ix2 p (0 : Fin 1)) + b (ix1 q)) (Ideal.ofBits .f32 0x00000000#32) := by
  unfold k1_pay1
  rw [maximumf_apply, addf_apply, mulf_apply, shapeCast_self, Cert.LibColumn.broadcastTo_a1_ab_apply,
    broadcastTo_1b_ab_apply, shapeCast_a_1a_apply, broadcast_apply]
  rfl

end Cert.KernelIdeal.Bodies

end
-- ==== Proof.Blocks.lean ====
/-
  From blocks to whole arrays, for each of the two regions.

  Each region walks ten points; point `t` works on rows 2000·t … 2000·t + 1999. The feature, scale and result windows
  move with the point (block index (t, 0)), the weight matrix and the bias are one block each, the same at every point.
  So row `p` of a block at point `t` is row 2000·t + p of the array, and what point `t` writes back is block `t` of one
  whole-array function of the arrays the region finds on entry: `Gcn.scaled` for the first region, `Gcn.activated` for
  the second. The ten blocks cover all 20000 rows (row `r` lies in block `r / 2000`), hence each region's result
  array ends holding that function.
-/
import proofs.«167983_j79817672229558_1_alg».proof.Proof.Gen.KernelIdeal.Frame
import proofs.«167983_j79817672229558_1_alg».proof.Proof.Spec
import proofs.«167983_j79817672229558_1_alg».proof.Proof.Bodies

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-! ## The first region: projection and scaling -/

/-- The printed index maps over the ten points: the moving windows sit at block (t, 0), the weight matrix at (0, 0). -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the block at point `t`, as a row of the array. -/
def row0 (t : Fin cfg0.N) (p : Fin 2000) : Fin 20000 :=
  ⟨t.val * 2000 + p.val, by have ht : t.val < 10 := (show t.val < grid0.N from t.isLt).trans_eq N_0; have := p.isLt; omega⟩

/-- The feature window's block, read at (p, k). -/
theorem feat0 (c : Dev nD) (t : Fin cfg0.N) (p : Fin 2000) (k : Fin 512) :
    iblk0 V c 0 t (ix2 p k) = V c main_v0 (ix2 (row0 t p) k) := by
  show V c main_v0 (((cfg0.win 0).blk t).view.emb (ix2 p k)) = V c main_v0 (ix2 (row0 t p) k)
  obtain ⟨e0, e1, -⟩ := maps0 t
  refine congrArg (V c main_v0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 512 + 1 * k.val = k.val; rw [e1]; omega

/-- The weight window's one block, read at (k, q). -/
theorem weight0 (c : Dev nD) (t : Fin cfg0.N) (k : Fin 512) (q : Fin 512) :
    iblk0 V c 1 t (ix2 k q) = V c main_v1 (ix2 k q) := by
  show V c main_v1 (((cfg0.win 1).blk t).view.emb (ix2 k q)) = V c main_v1 (ix2 k q)
  obtain ⟨-, -, e0, e1, -⟩ := maps0 t
  refine congrArg (V c main_v1) (funext fun a => Fin.ext ?_)
  match a with
  | ⟨0, _⟩ => show win0_1.index t (0 : Fin 2) * 512 + 1 * k.val = k.val; rw [e0]; omega
  | ⟨1, _⟩ => show win0_1.index t (1 : Fin 2) * 512 + 1 * q.val = q.val; rw [e1]; omega

/-- The scale window's block, read at (p, 0). -/
theorem scale0 (c : Dev nD) (t : Fin cfg0.N) (p : Fin 2000) :
    iblk0 V c 2 t (ix2 p (0 : Fin 1)) = V c main_arg3 (ix2 (row0 t p) (0 : Fin 1)) := by
  show V c main_arg3 (((cfg0.win 2).blk t).view.emb (ix2 p (0 : Fin 1))) = V c main_arg3 (ix2 (row0 t p) (0 : Fin 1))
  obtain ⟨-, -, -, -, e0, e1, -⟩ := maps0 t
  refine congrArg (V c main_arg3) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

/-- The result window's block at point `t` sits at rows 2000·t …: its (p, q) is the array's (2000·t + p, q). -/
theorem place0 (t : Fin cfg0.N) (p : Fin 2000) (q : Fin 512) :
    ((cfg0.win 3).blk t).view.emb (ix2 p q) = ix2 (row0 t p) q := by
  obtain ⟨-, -, -, -, -, -, e0, e1⟩ := maps0 t
  refine funext fun a => Fin.ext ?_
  match a with
  | ⟨0, _⟩ => show win0_3.index t (0 : Fin 2) * 2000 + 1 * p.val = t.val * 2000 + p.val; rw [e0]; omega
  | ⟨1, _⟩ => show win0_3.index t (1 : Fin 2) * 512 + 1 * q.val = q.val; rw [e1]; omega

/-- What point `t` writes back is block `t` of the scaled projection of the arrays the region finds. -/
theorem flushed0 (c : Dev nD) (t : Fin cfg0.N) :
    (dat0 V c).flushed 3 t = ((cfg0.win 3).blk t).view.read (Elt Ideal) (Cert.Gcn.scaled (V c main_v0) (V c main_v1) (V c main_arg3)) := by
  show (cfg0.win 3).cut (grid0.coords t) ((dat0 V c).after 3 t) = _
  rw [after0_3]
  unfold out0_3
  rw [View.canon_unit_zero zero2]
  simp only [View.ld_unit_zero (S := S2000x512) zero2, View.ld_unit_zero (S := S512x512) zero2, View.ld_unit_zero (S := S2000x1) zero2]
  funext j
  obtain ⟨p, q, rfl⟩ : ∃ (p : Fin 2000) (q : Fin 512), j = ix2 p q := ⟨j 0, j 1, eq_ix2 j⟩
  show k0_pay1 (iblk0 V c 0 t) (iblk0 V c 1 t) (iblk0 V c 2 t) (ix2 p q)
    = Cert.Gcn.scaled (V c main_v0) (V c main_v1) (V c main_arg3) (((cfg0.win 3).blk t).view.emb (ix2 p q))
  rw [place0 t p q, Cert.Gcn.scaled_apply]
  refine (Cert.KernelIdeal.Bodies.project_at (iblk0 V c 0 t) (iblk0 V c 1 t) (iblk0 V c 2 t) p q).trans ?_
  simp only [feat0 V c t, weight0 V c t, scale0 V c t]

/-- An index lies in point `t`'s result block iff each coordinate lies in the block's range on its axis. -/
theorem mem_out0 (t : Fin cfg0.N) (i : S20000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v2).slice (win0_3.rect t)).set ↔ _
  rw [View.set_slice_whole, Rect.mem_set_unit]
  exact Iff.rfl

/-- Every index of the result array lies in some point's block: row `r` in block `r / 2000`. -/
theorem cover0 (i : S20000x512.Idx) : ∃ t : Fin cfg0.N, (cfg0.win 3).flush t = true ∧ i ∈ ((cfg0.win 3).blk t).view.set := by
  have hi0 : (i 0).val < 20000 := (i 0).isLt
  have hi1 : (i 1).val < 512 := (i 1).isLt
  have hN : (i 0).val / 2000 < cfg0.N := by rw [show cfg0.N = 10 from N_0]; omega
  obtain ⟨-, -, -, -, -, -, e0, e1⟩ := maps0 ⟨(i 0).val / 2000, hN⟩
  refine ⟨⟨(i 0).val / 2000, hN⟩, flush0_3 _, ?_⟩
  rw [mem_out0]
  intro a
  match a with
  | ⟨0, _⟩ =>
    show win0_3.index ⟨(i 0).val / 2000, hN⟩ (0 : Fin 2) * 2000 ≤ (i 0).val ∧ (i 0).val < win0_3.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, hN⟩ (1 : Fin 2) * 512 ≤ (i 1).val ∧ (i 1).val < win0_3.index ⟨(i 0).val / 2000, hN⟩ (1 : Fin 2) * 512 + 512
    rw [e1]; omega

/-- The first region's result array ends holding the scaled projection of the arrays it found on entry. -/
theorem array0 (c : Dev nD) :
    (dat0 V c).arrAt 3 cfg0.N = Cert.Gcn.scaled (V c main_v0) (V c main_v1) (V c main_arg3) :=
  (dat0 V c).arrAt_eq_of_cover 3 (Cert.Gcn.scaled (V c main_v0) (V c main_v1) (V c main_arg3)) (fun t _ => flushed0 V c t) cover0

/-! ## The second region: scale, bias, cut-off -/

/-- The printed index maps over the ten points: the moving windows sit at block (t, 0), the bias at block (0). -/
theorem maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the block at point `t`, as a row of the array. -/
def row1 (t : Fin cfg1.N) (p : Fin 2000) : Fin 20000 :=
  ⟨t.val * 2000 + p.val, by have ht : t.val < 10 := (show t.val < grid1.N from t.isLt).trans_eq N_1; have := p.isLt; omega⟩

/-- The aggregated-feature window's block, read at (p, q). -/
theorem agg1 (c : Dev nD) (t : Fin cfg1.N) (p : Fin 2000) (q : Fin 512) :
    iblk1 V c 0 t (ix2 p q) = V c main_v12 (ix2 (row1 t p) q) := by
  show V c main_v12 (((cfg1.win 0).blk t).view.emb (ix2 p q)) = V c main_v12 (ix2 (row1 t p) q)
  obtain ⟨e0, e1, -⟩ := maps1 t
  refine congrArg (V c main_v12) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 512 + 1 * q.val = q.val; rw [e1]; omega

/-- The scale window's block, read at (p, 0). -/
theorem scale1 (c : Dev nD) (t : Fin cfg1.N) (p : Fin 2000) :
    iblk1 V c 1 t (ix2 p (0 : Fin 1)) = V c main_arg3 (ix2 (row1 t p) (0 : Fin 1)) := by
  show V c main_arg3 (((cfg1.win 1).blk t).view.emb (ix2 p (0 : Fin 1))) = V c main_arg3 (ix2 (row1 t p) (0 : Fin 1))
  obtain ⟨-, -, e0, e1, -⟩ := maps1 t
  refine congrArg (V c main_arg3) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

/-- The bias window's one block, read at q. -/
theorem bias1 (c : Dev nD) (t : Fin cfg1.N) (q : Fin 512) :
    iblk1 V c 2 t (ix1 q) = V c main_arg2 (ix1 q) := by
  show V c main_arg2 (((cfg1.win 2).blk t).view.emb (ix1 q)) = V c main_arg2 (ix1 q)
  obtain ⟨-, -, -, -, e0, -⟩ := maps1 t
  refine congrArg (V c main_arg2) (funext fun a => Fin.ext ?_)
  match a with
  | ⟨0, _⟩ => show win1_2.index t (0 : Fin 1) * 512 + 1 * q.val = q.val; rw [e0]; omega

/-- The result window's block at point `t` sits at rows 2000·t …. -/
theorem place1 (t : Fin cfg1.N) (p : Fin 2000) (q : Fin 512) :
    ((cfg1.win 3).blk t).view.emb (ix2 p q) = ix2 (row1 t p) q := by
  obtain ⟨-, -, -, -, -, e0, e1⟩ := maps1 t
  refine funext fun a => Fin.ext ?_
  match a with
  | ⟨0, _⟩ => show win1_3.index t (0 : Fin 2) * 2000 + 1 * p.val = t.val * 2000 + p.val; rw [e0]; omega
  | ⟨1, _⟩ => show win1_3.index t (1 : Fin 2) * 512 + 1 * q.val = q.val; rw [e1]; omega

/-- What point `t` writes back is block `t` of the activation of the arrays the region finds. -/
theorem flushed1 (c : Dev nD) (t : Fin cfg1.N) :
    (dat1 V c).flushed 3 t = ((cfg1.win 3).blk t).view.read (Elt Ideal) (Cert.Gcn.activated (V c main_v12) (V c main_arg3) (V c main_arg2)) := by
  show (cfg1.win 3).cut (grid1.coords t) ((dat1 V c).after 3 t) = _
  rw [after1_3]
  unfold out1_3
  rw [View.canon_unit_zero zero2]
  simp only [View.ld_unit_zero (S := S2000x512) zero2, View.ld_unit_zero (S := S512) zero1, View.ld_unit_zero (S := S2000x1) zero2]
  funext j
  obtain ⟨p, q, rfl⟩ : ∃ (p : Fin 2000) (q : Fin 512), j = ix2 p q := ⟨j 0, j 1, eq_ix2 j⟩
  show k1_pay1 (iblk1 V c 2 t) (iblk1 V c 0 t) (iblk1 V c 1 t) (ix2 p q)
    = Cert.Gcn.activated (V c main_v12) (V c main_arg3) (V c main_arg2) (((cfg1.win 3).blk t).view.emb (ix2 p q))
  rw [place1 t p q, Cert.Gcn.activated_apply]
  refine (Cert.KernelIdeal.Bodies.finish_at (iblk1 V c 2 t) (iblk1 V c 0 t) (iblk1 V c 1 t) p q).trans ?_
  rw [agg1 V c t, scale1 V c t, bias1 V c t]

/-- An index lies in point `t`'s result block iff each coordinate lies in the block's range on its axis. -/
theorem mem_out1 (t : Fin cfg1.N) (i : S20000x512.Idx) :
    i ∈ ((cfg1.win 3).blk t).view.set ↔ ∀ a : Fin 2, win1_3.index t a * S2000x512.size a ≤ (i a).val ∧ (i a).val < win1_3.index t a * S2000x512.size a + S2000x512.size a := by
  show i ∈ ((View.whole main_v13).slice (win1_3.rect t)).set ↔ _
  rw [View.set_slice_whole, Rect.mem_set_unit]
  exact Iff.rfl

/-- Every index of the result array lies in some point's block. -/
theorem cover1 (i : S20000x512.Idx) : ∃ t : Fin cfg1.N, (cfg1.win 3).flush t = true ∧ i ∈ ((cfg1.win 3).blk t).view.set := by
  have hi0 : (i 0).val < 20000 := (i 0).isLt
  have hi1 : (i 1).val < 512 := (i 1).isLt
  have hN : (i 0).val / 2000 < cfg1.N := by rw [show cfg1.N = 10 from N_1]; omega
  obtain ⟨-, -, -, -, -, e0, e1⟩ := maps1 ⟨(i 0).val / 2000, hN⟩
  refine ⟨⟨(i 0).val / 2000, hN⟩, flush1_3 _, ?_⟩
  rw [mem_out1]
  intro a
  match a with
  | ⟨0, _⟩ =>
    show win1_3.index ⟨(i 0).val / 2000, hN⟩ (0 : Fin 2) * 2000 ≤ (i 0).val ∧ (i 0).val < win1_3.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, hN⟩ (1 : Fin 2) * 512 ≤ (i 1).val ∧ (i 1).val < win1_3.index ⟨(i 0).val / 2000, hN⟩ (1 : Fin 2) * 512 + 512
    rw [e1]; omega

/-- The second region's result array ends holding the activation of the arrays it found on entry. -/
theorem array1 (c : Dev nD) :
    (dat1 V c).arrAt 3 cfg1.N = Cert.Gcn.activated (V c main_v12) (V c main_arg3) (V c main_arg2) :=
  (dat1 V c).arrAt_eq_of_cover 3 (Cert.Gcn.activated (V c main_v12) (V c main_arg3) (V c main_arg2)) (fun t _ => flushed1 V c t) cover1

end Cert.KernelIdeal.Blocks

end
-- ==== Proof.Aggregate.lean ====
/-
  The neighbour aggregation both programs share, as one function.

  Given a feature matrix `x` (20000 × 512) and the edges' source and destination node indices (320000 each), a
  negative source index is first shifted up by the number of nodes, the rows of `x` named by the source indices are
  gathered into a 320000 × 512 matrix, and that matrix is added, row by row, into a zero matrix at the rows named by the
  destination indices. Both programs apply exactly these operations, to matrices that are proved equal; the operations
  themselves are never opened.
-/
import proofs.«167983_j79817672229558_1_alg».proof.Proof.Gen.ReferenceIdeal.Read

noncomputable section

namespace Cert.ReferenceIdeal.Aggregate

open Cert.ReferenceIdeal Cert.ReferenceIdeal.Gen Cert.ReferenceIdeal.Read Idealize.ShloMosaic Idealize.ShloMosaic.TcCoe

/-- Gather the rows of `x` at the edges' sources and sum them into the rows of the edges' destinations. -/
def aggregate (x : (⟨S20000x512, .f32⟩ : BufTy).Contents (Elt Ideal)) (src dst : (⟨S320000, .i32⟩ : BufTy).Contents (Elt Ideal)) :
    (⟨S20000x512, .f32⟩ : BufTy).Contents (Elt Ideal) :=
  Host.scatterAdd (F := Ideal) (φ := .f32) scatter_S20000x512_S320000x1_S320000x512_1_0_0_1 (val_main_v10 (F := Ideal)) (val_main_v11 (F := Ideal) dst)
    (Host.gather gather_S20000x512_S320000x1_S320000x512_1_0_n_n_0_1_1512 x (val_main_v8 (F := Ideal) src))

/-- The reference's aggregated matrix is the aggregation of its scaled projection. -/
theorem stage_eq (x0 : (⟨S20000x512, .f32⟩ : BufTy).Contents (Elt Ideal)) (x1 : (⟨S512x512, .f32⟩ : BufTy).Contents (Elt Ideal))
    (x3 : (⟨S20000x1, .f32⟩ : BufTy).Contents (Elt Ideal)) (x4 x5 : (⟨S320000, .i32⟩ : BufTy).Contents (Elt Ideal)) :
    val_main_v12 (F := Ideal) x0 x1 x3 x4 x5 = aggregate (val_main_v2 (F := Ideal) x0 x1 x3) x4 x5 := rfl

end Cert.ReferenceIdeal.Aggregate

end
-- ==== Proof.Walk.lean ====
/-
  The last boundary's contents of the result buffer, walked back to the launch memory.

  At the ideal values the two format changes before the first region are the identity, so the first region finds the
  features and the weights as launched and leaves the scaled projection of them in its result array. The stretch between
  the regions aggregates that array over the edges. The second region finds the aggregate, the scales and the bias, and
  leaves the activation of them in the program's result. No stretch and no region writes an argument, so every argument
  met on the way is what the program was launched with.
-/
import proofs.«167983_j79817672229558_1_alg».proof.Proof.Gen.KernelIdeal.Frame
import proofs.«167983_j79817672229558_1_alg».proof.Proof.Spec
import proofs.«167983_j79817672229558_1_alg».proof.Proof.Blocks
import proofs.«167983_j79817672229558_1_alg».proof.Proof.Aggregate
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## What the first region finds -/

/-- The features it finds are the launched ones: the format change is the identity on the extended reals. -/
theorem found_features (c : Dev nD) :
    (V1 m ρ c main_v0 : S20000x512.Idx → EReal) = m ((c.tc : Thread nD τ).loc main_arg0) := by
  show StableHlo.after hostOps0 (W0 m ρ c) (Proc.devRef .tc main_v0) = _
  after_results
  rfl

/-- So are the weights. -/
theorem found_weights (c : Dev nD) :
    (V1 m ρ c main_v1 : S512x512.Idx → EReal) = m ((c.tc : Thread nD τ).loc main_arg1) := by
  show StableHlo.after hostOps0 (W0 m ρ c) (Proc.devRef .tc main_v1) = _
  after_results
  rfl

/-- And the scales, which the first stretch does not touch. -/
theorem found_scales (c : Dev nD) :
    (V1 m ρ c main_arg3 : S20000x1.Idx → EReal) = m ((c.tc : Thread nD τ).loc main_arg3) := by
  show StableHlo.after hostOps0 (W0 m ρ c) (Proc.devRef .tc main_arg3) = _
  after_results <;> rfl

/-! ## What the first region leaves -/

/-- Its result array: the scaled projection of the launched features, weights and scales. -/
theorem left_projection (c : Dev nD) :
    W2 m ρ c (Proc.devRef .tc main_v2)
      = Cert.Gcn.scaled (m ((c.tc : Thread nD τ).loc main_arg0)) (m ((c.tc : Thread nD τ).loc main_arg1)) (m ((c.tc : Thread nD τ).loc main_arg3)) := by
  rw [← found_features m ρ c, ← found_weights m ρ c, ← found_scales m ρ c]
  exact (W2_arr m ρ c 3).trans (Cert.KernelIdeal.Blocks.array0 (V1 m ρ) c)

/-- The edges' sources, untouched so far. -/
theorem left_sources (c : Dev nD) :
    W2 m ρ c (Proc.devRef .tc main_arg4) = m ((c.tc : Thread nD τ).loc main_arg4) :=
  (W2_of_ne m ρ c main_arg4 (by decide)).trans (by
    show StableHlo.after hostOps0 (W0 m ρ c) (Proc.devRef .tc main_arg4) = _
    after_results <;> rfl)

/-- The edges' destinations, untouched so far. -/
theorem left_destinations (c : Dev nD) :
    W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results <;> rfl)

/-! ## What the second region finds -/

/-- The aggregate of what the first region left, over the launched edges. -/
theorem found_aggregate (c : Dev nD) :
    (V3 m ρ c main_v12 : S20000x512.Idx → EReal)
      = Cert.ReferenceIdeal.Aggregate.aggregate
          (Cert.Gcn.scaled (m ((c.tc : Thread nD τ).loc main_arg0)) (m ((c.tc : Thread nD τ).loc main_arg1)) (m ((c.tc : Thread nD τ).loc main_arg3)))
          (m ((c.tc : Thread nD τ).loc main_arg4)) (m ((c.tc : Thread nD τ).loc main_arg5)) := by
  rw [← left_projection m ρ c, ← left_sources m ρ c, ← left_destinations m ρ c]
  show StableHlo.after hostOps1 (W2 m ρ c) (Proc.devRef .tc main_v12) = _
  after_results
  rfl

/-- The scales as launched: the second region only reads them, and nothing before it wrote them. -/
theorem found_scales_again (c : Dev nD) :
    (V3 m ρ c main_arg3 : S20000x1.Idx → EReal) = m ((c.tc : Thread nD τ).loc main_arg3) :=
  ((W4_arr m ρ c 1).trans (((dat1 (V3 m ρ) c).arrAt_in 1 rfl _).trans (A_eq1 (V3 m ρ) c 1))).symm.trans (W4_main_arg3 m ρ c)

/-- The bias as launched, for the same reason. -/
theorem found_bias (c : Dev nD) :
    (V3 m ρ c main_arg2 : S512.Idx → EReal) = m ((c.tc : Thread nD τ).loc main_arg2) :=
  ((W4_arr m ρ c 2).trans (((dat1 (V3 m ρ) c).arrAt_in 2 rfl _).trans (A_eq1 (V3 m ρ) c 2))).symm.trans (W4_main_arg2 m ρ c)

/-! ## The result -/

/-- The result buffer at the last boundary: the activation of the aggregated scaled projection. -/
theorem result (c : Dev nD) :
    W4 m ρ c (Proc.devRef .tc main_v13)
      = Cert.Gcn.activated
          (Cert.ReferenceIdeal.Aggregate.aggregate
            (Cert.Gcn.scaled (m ((c.tc : Thread nD τ).loc main_arg0)) (m ((c.tc : Thread nD τ).loc main_arg1)) (m ((c.tc : Thread nD τ).loc main_arg3)))
            (m ((c.tc : Thread nD τ).loc main_arg4)) (m ((c.tc : Thread nD τ).loc main_arg5)))
          (m ((c.tc : Thread nD τ).loc main_arg3)) (m ((c.tc : Thread nD τ).loc main_arg2)) := by
  rw [← found_aggregate m ρ c, ← found_scales_again m ρ c, ← found_bias m ρ c]
  exact (W4_arr m ρ c 3).trans (Cert.KernelIdeal.Blocks.array1 (V3 m ρ) c)

end Cert.KernelIdeal.Walk

end
-- ==== Proof.Stages.lean ====
/-
  The reference's stages are the same functions.

  Its first three operations form the product of the features with the weights, spread the scale column over the 512
  columns and multiply, the scale on the left: at (p, q) that is nrm(p) · ∑ₖ h(p,k) · w(k,q), which is the scaled
  projection because multiplication of extended reals is commutative (the sum itself is term for term the same).
  After the aggregation it multiplies by the spread scale column again, adds the bias spread over the rows and takes
  the maximum with a zero matrix: at (p, q) the activation, operation for operation.
-/
import proofs.«167983_j79817672229558_1_alg».proof.Proof.Gen.ReferenceIdeal.Read
import proofs.«167983_j79817672229558_1_alg».proof.Proof.Spec
import proofs.«167983_j79817672229558_1_alg».proof.Proof.Aggregate

noncomputable section

namespace Cert.ReferenceIdeal.Stages

open Cert.ReferenceIdeal Cert.ReferenceIdeal.Gen Cert.ReferenceIdeal.Read Idealize.ShloMosaic Idealize.ShloMosaic.TcCoe
open Idealize.ShloMosaic.ValueIdx

/-- The reference's scaled product is the scaled projection. -/
theorem scaled_eq (x0 : (⟨S20000x512, .f32⟩ : BufTy).Contents (Elt Ideal)) (x1 : (⟨S512x512, .f32⟩ : BufTy).Contents (Elt Ideal))
    (x3 : (⟨S20000x1, .f32⟩ : BufTy).Contents (Elt Ideal)) :
    val_main_v2 (F := Ideal) x0 x1 x3 = Cert.Gcn.scaled x0 x1 x3 := by
  funext i
  obtain ⟨p, q, rfl⟩ : ∃ (p : Fin 20000) (q : Fin 512), i = ix2 p q := ⟨i 0, i 1, eq_ix2 i⟩
  rw [val_main_v2_apply, val_main_v1_apply, val_main_v0_apply, Cert.Gcn.scaled_apply]
  have e1 : idx_main_v1 (ix2 p q) = ix2 p (0 : Fin 1) :=
    funext fun a => Fin.ext (by match a with | ⟨0, _⟩ => rfl | ⟨1, _⟩ => rfl)
  have el : ∀ k : Fin 512, lidx_main_v0 (ix2 p q) k = ix2 p k := fun k =>
    funext fun a => Fin.ext (by match a with | ⟨0, _⟩ => rfl | ⟨1, _⟩ => rfl)
  have er : ∀ k : Fin 512, ridx_main_v0 (ix2 p q) k = ix2 k q := fun k =>
    funext fun a => Fin.ext (by match a with | ⟨0, _⟩ => rfl | ⟨1, _⟩ => rfl)
  simp only [e1, el, er]
  exact mul_comm _ _

/-- The reference's result is the activation of the aggregated scaled projection. -/
theorem result_eq (x0 : (⟨S20000x512, .f32⟩ : BufTy).Contents (Elt Ideal)) (x1 : (⟨S512x512, .f32⟩ : BufTy).Contents (Elt Ideal))
    (x2 : (⟨S512, .f32⟩ : BufTy).Contents (Elt Ideal)) (x3 : (⟨S20000x1, .f32⟩ : BufTy).Contents (Elt Ideal))
    (x4 x5 : (⟨S320000, .i32⟩ : BufTy).Contents (Elt Ideal)) :
    val_main_v18 (F := Ideal) x0 x1 x2 x3 x4 x5
      = Cert.Gcn.activated (Cert.ReferenceIdeal.Aggregate.aggregate (Cert.Gcn.scaled x0 x1 x3) x4 x5) x3 x2 := by
  funext i
  obtain ⟨p, q, rfl⟩ : ∃ (p : Fin 20000) (q : Fin 512), i = ix2 p q := ⟨i 0, i 1, eq_ix2 i⟩
  rw [val_main_v18_apply, val_main_v17_apply, val_main_v14_apply, val_main_v13_apply, val_main_v16_apply, val_main_v15_apply,
    val_main_call0_v0_apply, val_main_call0_cst_apply, Cert.ReferenceIdeal.Aggregate.stage_eq, scaled_eq, Cert.Gcn.activated_apply]
  have e13 : idx_main_v13 (ix2 p q) = ix2 p (0 : Fin 1) :=
    funext fun a => Fin.ext (by match a with | ⟨0, _⟩ => rfl | ⟨1, _⟩ => rfl)
  have e16 : idx_main_v15 (idx_main_v16 (ix2 p q)) = ix1 q :=
    funext fun a => Fin.ext (by match a with | ⟨0, _⟩ => rfl)
  rw [e13, e16]
  rfl

end Cert.ReferenceIdeal.Stages

end
-- ==== Proof.lean ====
/-
  A graph-convolution layer: the tiled program against its plain statement, on the extended reals.

  Both compute, for node features h, weights w, bias b, per-node scales nrm and edges (src, dst),

      out = max (A ((h · w) scaled by nrm) scaled by nrm + b) 0,

  where A gathers rows at the edges' sources and sums them into the rows of the edges' destinations. The tiled program
  forms the scaled projection in a first region of ten row blocks (after two format changes that are the identity on the
  extended reals), aggregates on the host, and applies the scale, the bias and the cut-off in a second region of ten row
  blocks; the plain statement does all of it on the host. The two sides differ only in the order of one product
  (the projection times the scale against the scale times the projection), and multiplication of extended reals is
  commutative; the aggregation is the same operations applied to equal matrices. No law used here needs the inputs to
  be finite, so the precondition is never opened.

  The pieces: `Spec` states the two whole-array functions; `Bodies` reads the two region bodies' arithmetic at a row and
  a column; `Blocks` carries each region from its blocks to its whole result array; `LastBoundary` is the tiled
  program's run with its result kept; `Walk` reads that result back to the launch memory; `Aggregate` names the shared
  aggregation; `Stages` shows the plain statement's stages are the same functions.
-/
import proofs.«167983_j79817672229558_1_alg».proof.Defs
import proofs.«167983_j79817672229558_1_alg».proof.Proof.Gen.Kernel
import proofs.«167983_j79817672229558_1_alg».proof.Proof.Gen.Kernel.Skeleton
import proofs.«167983_j79817672229558_1_alg».proof.Proof.Gen.Kernel.Launch
import proofs.«167983_j79817672229558_1_alg».proof.Proof.Gen.Kernel.Points
import proofs.«167983_j79817672229558_1_alg».proof.Proof.Gen.Kernel.Frame
import proofs.«167983_j79817672229558_1_alg».proof.Proof.Gen.KernelIdeal
import proofs.«167983_j79817672229558_1_alg».proof.Proof.Gen.KernelIdeal.Skeleton
import proofs.«167983_j79817672229558_1_alg».proof.Proof.Gen.KernelIdeal.Launch
import proofs.«167983_j79817672229558_1_alg».proof.Proof.Gen.KernelIdeal.Points
import proofs.«167983_j79817672229558_1_alg».proof.Proof.Gen.KernelIdeal.Frame
import proofs.«167983_j79817672229558_1_alg».proof.Proof.Gen.ReferenceIdeal
import proofs.«167983_j79817672229558_1_alg».proof.Proof.Gen.Pre_finite_inputs
import proofs.«167983_j79817672229558_1_alg».proof.Proof.Gen.ReferenceIdeal.Run
import proofs.«167983_j79817672229558_1_alg».proof.Proof.Gen.ReferenceIdeal.Read
import proofs.«167983_j79817672229558_1_alg».proof.Proof.LastBoundary
import proofs.«167983_j79817672229558_1_alg».proof.Proof.Walk
import proofs.«167983_j79817672229558_1_alg».proof.Proof.Stages
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- So does the idealized program. -/
theorem frame_kernel_ideal : Cert.frame_KernelIdeal := fun m ρ _ => Cert.KernelIdeal.Gen.frame m ρ

/-- The plain statement is a line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the activation of the aggregated scaled projection
    of those arguments: the tiled program by its run read back to the launch memory, the plain statement by its run and
    its stages. -/
theorem algebraic : Cert.algebraic_KernelIdeal_ReferenceIdeal := by
  intro m ρ m' ρ' _ hagree
  refine ⟨fun c => Cert.Gcn.activated
      (Cert.ReferenceIdeal.Aggregate.aggregate
        (Cert.Gcn.scaled (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3)))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Walk.result m ρ c), (h c).2⟩)
      (Cert.KernelIdeal.LastBoundary.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v18_eq _ _ _ _ _ _).trans (Cert.ReferenceIdeal.Stages.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
